-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S131072 : Shape := ⟨1, ![131072]⟩
abbrev S40x256 : Shape := ⟨2, ![40, 256]⟩
abbrev S2048x256 : Shape := ⟨2, ![2048, 256]⟩
abbrev S2048 : Shape := ⟨1, ![2048]⟩
abbrev S1024x1536 : Shape := ⟨2, ![1024, 1536]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S40x256 : S_.BroadcastsInDim S40x256 (![] : Fin 0 → Fin S40x256.rank)
  reducesTo_S40x256_S_d0_1 : S40x256.ReducesTo [0, 1] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S1024x1536 : S_.BroadcastsInDim S1024x1536 (![] : Fin 0 → Fin S1024x1536.rank)
  reducesTo_S1024x1536_S_d0_1 : S1024x1536.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S2048 .f32) (main_arg7 : FVec F S1024x1536 .f32) (main_arg8 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x1536 .f32 := Host.absf main_arg7
  let main_cst_8 : FVec F S_ .f32 := constant S_ .f32 0x7F800000#32
  let main_v25 : FVec F S1024x1536 .f32 := broadcastInDim S1024x1536 ![] bcast_S_S1024x1536 main_cst_8
  let main_v26 : IVec S1024x1536 1 := cmpf .olt main_v24 main_v25
  let main_c_9 : IVec S_ 1 := constantI S_ 1 1#1
  let main_v27 : IVec S_ 1 := (fun x v => Host.reduce IntOp.andi x v reducesTo_S1024x1536_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S32768x1024 .f32) (main_arg1 : IVec S131072 32) (main_arg2 : IVec S131072 32) (main_arg3 : FVec F S40x256 .f32) (main_arg4 : FVec F S2048x256 .f32) (main_arg5 : FVec F S2048 .f32) (main_arg6 : FVec F S2048 .f32) (main_arg7 : FVec F S1024x1536 .f32) (main_arg8 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S40x256 .f32 := Host.absf main_arg3
  let main_cst_0 : FVec F S_ .f32 := constant S_ .f32 0x7F800000#32
  let main_v5 : FVec F S40x256 .f32 := broadcastInDim S40x256 ![] bcast_S_S40x256 main_cst_0
  let main_v6 : IVec S40x256 1 := cmpf .olt main_v4 main_v5
  let main_c_1 : IVec S_ 1 := constantI S_ 1 1#1
  let main_v7 : IVec S_ 1 := (fun x v => Host.reduce IntOp.andi x v reducesTo_S40x256_S_d0_1 h_S_) main_v6 main_c_1
  let main_v8 : IVec S_ 1 := andi main_v3 main_v7
  let main_v9 : FVec F S2048x256 .f32 := Host.absf main_arg4
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg7 main_arg8 main_v13 main_v16
-- ==== Kernel.lean ====
abbrev S32768x1024 : Shape := ⟨2, ![32768, 1024]⟩
abbrev S131072 : Shape := ⟨1, ![131072]⟩
abbrev S40x256 : Shape := ⟨2, ![40, 256]⟩
abbrev S2048x256 : Shape := ⟨2, ![2048, 256]⟩
abbrev S2048 : Shape := ⟨1, ![2048]⟩
abbrev S1024x1536 : Shape := ⟨2, ![1024, 1536]⟩
abbrev S1024 : Shape := ⟨1, ![1024]⟩
abbrev S1x2048 : Shape := ⟨2, ![1, 2048]⟩
abbrev S1024x1024 : Shape := ⟨2, ![1024, 1024]⟩
abbrev S1024x512 : Shape := ⟨2, ![1024, 512]⟩
abbrev S256x2048 : Shape := ⟨2, ![256, 2048]⟩
abbrev S512x1024 : Shape := ⟨2, ![512, 1024]⟩
abbrev S1x1024 : Shape := ⟨2, ![1, 1024]⟩
abbrev S_ : Shape := ⟨0, ![]⟩
abbrev S131072x1 : Shape := ⟨2, ![131072, 1]⟩
abbrev S131072x256 : Shape := ⟨2, ![131072, 256]⟩
abbrev S131072x1024 : Shape := ⟨2, ![131072, 1024]⟩
abbrev S512x256 : Shape := ⟨2, ![512, 256]⟩
abbrev S512x2048 : Shape := ⟨2, ![512, 2048]⟩
abbrev S512x512 : Shape := ⟨2, ![512, 512]⟩

abbrev nBuf : Space → Nat
  | .hbm => 41
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S131072, .i32⟩
  | .hbm, ⟨2, _⟩ => ⟨S131072, .i32⟩
  | .hbm, ⟨3, _⟩ => ⟨S40x256, .f32⟩
  | .hbm, ⟨4, _⟩ => ⟨S2048x256, .f32⟩
  | .hbm, ⟨5, _⟩ => ⟨S2048, .f32⟩
  | .hbm, ⟨6, _⟩ => ⟨S2048, .f32⟩
  | .hbm, ⟨7, _⟩ => ⟨S1024x1536, .f32⟩
  | .hbm, ⟨8, _⟩ => ⟨S1024, .f32⟩
  | .hbm, ⟨9, _⟩ => ⟨S2048, .f32⟩
  | .hbm, ⟨10, _⟩ => ⟨S1x2048, .f32⟩
  | .hbm, ⟨11, _⟩ => ⟨S1024x1024, .f32⟩
  | .hbm, ⟨12, _⟩ => ⟨S1024x512, .f32⟩
  | .hbm, ⟨13, _⟩ => ⟨S256x2048, .f32⟩
  | .hbm, ⟨14, _⟩ => ⟨S256x2048, .bf16⟩
  | .hbm, ⟨15, _⟩ => ⟨S1024x1024, .f32⟩
  | .hbm, ⟨16, _⟩ => ⟨S1024x1024, .bf16⟩
  | .hbm, ⟨17, _⟩ => ⟨S512x1024, .f32⟩
  | .hbm, ⟨18, _⟩ => ⟨S512x1024, .bf16⟩
  | .hbm, ⟨19, _⟩ => ⟨S1x1024, .f32⟩
  | .hbm, ⟨20, _⟩ => ⟨S40x256, .bf16⟩
  | .hbm, ⟨21, _⟩ => ⟨S32768x1024, .bf16⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072x256, .bf16⟩
  | .hbm, ⟨31, _⟩ => ⟨S_, .i32⟩
  | .hbm, ⟨32, _⟩ => ⟨S131072, .i32⟩
  | .hbm, ⟨33, _⟩ => ⟨S131072, .i1⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S131072, .i32⟩
  | .hbm, ⟨38, _⟩ => ⟨S131072x1, .i32⟩
  | .hbm, ⟨39, _⟩ => ⟨S131072x1024, .bf16⟩
  | .hbm, ⟨40, _⟩ => ⟨S131072x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S1x2048, .f32⟩
  | .local _ .vmem, ⟨6, _⟩ => ⟨S1024x1024, .bf16⟩
  | .local _ .vmem, ⟨7, _⟩ => ⟨S512x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2048_S1x2048 : S2048.ShapeCasts S1x2048
  slices_S1024x1536_S1024x1024_0_0 : S1024x1536.Slices ![0, 0] S1024x1024
  slices_S1024x1536_S1024x512_0_1024 : S1024x1536.Slices ![0, 1024] S1024x512
  transposes_S2048x256_S256x2048_1_0 : S2048x256.Transposes [1, 0] S256x2048
  bitsLt_bf16_f32 : FTy.bits .bf16 < FTy.bits .f32
  transposes_S1024x1024_S1024x1024_1_0 : S1024x1024.Transposes [1, 0] S1024x1024
  transposes_S1024x512_S512x1024_1_0 : S1024x512.Transposes [1, 0] S512x1024
  shapeCasts_S1024_S1x1024 : S1024.ShapeCasts S1x1024
  bcast_S_S131072 : S_.BroadcastsInDim S131072 (![] : Fin 0 → Fin S131072.rank)
  bcast_S131072_S131072x1_0 : S131072.BroadcastsInDim S131072x1 (![0] : Fin 1 → Fin S131072x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  broadcasts_S1x1024_S512x1024 : S1x1024.Broadcasts S512x1024
  gather_S40x256_S131072x1_S131072x256_1_0_n_n_0_1_1256_wf : GatherDims.WF S40x256 S131072x1 S131072x256 [1] [0] [] [0] [] 1 ![1, 256]
  gather_S32768x1024_S131072x1_S131072x1024_1_0_n_n_0_1_11024_wf : GatherDims.WF S32768x1024 S131072x1 S131072x1024 [1] [0] [] [0] [] 1 ![1, 1024]
  dot_S512x256_S256x2048_S512x2048_1_0_0_1_n_n_wf : DotDims.WF S512x256 S256x2048 S512x2048 [1] [0] [0] [1] [] []
  dot_S512x1024_S1024x1024_S512x1024_1_0_0_1_n_n_wf : DotDims.WF S512x1024 S1024x1024 S512x1024 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S131072x256.size a
  hwx0_0 : ∀ i : grid0.Coords, EltTy.bits .bf16 = 32 ∨ (Rect.block (s := S131072x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S131072x1024.size a
  hwx0_1 : ∀ i : grid0.Coords, EltTy.bits .bf16 = 32 ∨ (Rect.block (s := S131072x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S131072x1024.size a
  hwx0_7 : ∀ i : grid0.Coords, EltTy.bits .f32 = 32 ∨ (Rect.block (s := S131072x1024) S512x1024.size (cc0_transform_7 i) (hinb0_7 i)).WholeWords (EltTy.packing .f32)

variable [Facts₀]

def gather_S40x256_S131072x1_S131072x256_1_0_n_n_0_1_1256 : GatherDims S40x256 S131072x1 S131072x256 where
  offsetDims := [1]
  collapsedSliceDims := [0]
  operandBatchingDims := []
  startIndicesBatchingDims := []
  startIndexMap := [0]
  indexVectorDim := 1
  sliceSizes := ![1, 256]
  wf := gather_S40x256_S131072x1_S131072x256_1_0_n_n_0_1_1256_wf
def gather_S32768x1024_S131072x1_S131072x1024_1_0_n_n_0_1_11024 : GatherDims S32768x1024 S131072x1 S131072x1024 where
  offsetDims := [1]
  collapsedSliceDims := [0]
  operandBatchingDims := []
  startIndicesBatchingDims := []
  startIndexMap := [0]
  indexVectorDim := 1
  sliceSizes := ![1, 1024]
  wf := gather_S32768x1024_S131072x1_S131072x1024_1_0_n_n_0_1_11024_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v19) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S131072 : Shape := ⟨1, ![131072]⟩
abbrev S40x256 : Shape := ⟨2, ![40, 256]⟩
abbrev S2048x256 : Shape := ⟨2, ![2048, 256]⟩
abbrev S2048 : Shape := ⟨1, ![2048]⟩
abbrev S1024x1536 : Shape := ⟨2, ![1024, 1536]⟩
abbrev S1024 : Shape := ⟨1, ![1024]⟩
abbrev S_ : Shape := ⟨0, ![]⟩
abbrev S131072x1 : Shape := ⟨2, ![131072, 1]⟩
abbrev S131072x256 : Shape := ⟨2, ![131072, 256]⟩
abbrev S256x2048 : Shape := ⟨2, ![256, 2048]⟩
abbrev S131072x2048 : Shape := ⟨2, ![131072, 2048]⟩
abbrev S1x2048 : Shape := ⟨2, ![1, 2048]⟩
abbrev S131072x512 : Shape := ⟨2, ![131072, 512]⟩
abbrev S131072x1024 : Shape := ⟨2, ![131072, 1024]⟩
abbrev S131072x1536 : Shape := ⟨2, ![131072, 1536]⟩
abbrev S1536x1024 : Shape := ⟨2, ![1536, 1024]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S131072, .i32⟩
  | .hbm, ⟨2, _⟩ => ⟨S131072, .i32⟩
  | .hbm, ⟨3, _⟩ => ⟨S40x256, .f32⟩
  | .hbm, ⟨4, _⟩ => ⟨S2048x256, .f32⟩
  | .hbm, ⟨5, _⟩ => ⟨S2048, .f32⟩
  | .hbm, ⟨6, _⟩ => ⟨S2048, .f32⟩
  | .hbm, ⟨7, _⟩ => ⟨S1024x1536, .f32⟩
  | .hbm, ⟨8, _⟩ => ⟨S1024, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S131072x1, .i32⟩
  | .hbm, ⟨17, _⟩ => ⟨S131072x256, .f32⟩
  | .hbm, ⟨18, _⟩ => ⟨S256x2048, .f32⟩
  | .hbm, ⟨19, _⟩ => ⟨S131072x2048, .f32⟩
  | .hbm, ⟨20, _⟩ => ⟨S1x2048, .f32⟩
  | .hbm, ⟨21, _⟩ => ⟨S131072x2048, .f32⟩
  | .hbm, ⟨22, _⟩ => ⟨S131072x2048, .f32⟩
  | .hbm, ⟨23, _⟩ => ⟨S1x2048, .f32⟩
  | .hbm, ⟨24, _⟩ => ⟨S131072x2048, .f32⟩
  | .hbm, ⟨25, _⟩ => ⟨S131072x2048, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S131072x512, .f32⟩
  | .hbm, ⟨32, _⟩ => ⟨S_, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .f32⟩
  | .hbm, ⟨38, _⟩ => ⟨S131072x512, .f32⟩
  | .hbm, ⟨39, _⟩ => ⟨S131072x512, .f32⟩
  | .hbm, ⟨40, _⟩ => ⟨S131072x512, .f32⟩
  | .hbm, ⟨41, _⟩ => ⟨S131072x512, .f32⟩
  | .hbm, ⟨42, _⟩ => ⟨S_, .f32⟩
  | .hbm, ⟨43, _⟩ => ⟨S131072x512, .f32⟩
  | .hbm, ⟨44, _⟩ => ⟨S131072x512, .f32⟩
  | .hbm, ⟨45, _⟩ => ⟨S_, .f32⟩
  | .hbm, ⟨46, _⟩ => ⟨S131072x512, .f32⟩
  | .hbm, ⟨47, _⟩ => ⟨S131072x512, .f32⟩
  | .hbm, ⟨48, _⟩ => ⟨S131072x512, .f32⟩
  | .hbm, ⟨49, _⟩ => ⟨S131072x512, .f32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S131072x1024, .f32⟩
  | .hbm, ⟨59, _⟩ => ⟨S131072x1536, .f32⟩
  | .hbm, ⟨60, _⟩ => ⟨S1536x1024, .f32⟩
  | .hbm, ⟨61, _⟩ => ⟨S131072x1024, .f32⟩
  | .hbm, ⟨62, _⟩ => ⟨S1x1024, .f32⟩
  | .hbm, ⟨63, _⟩ => ⟨S131072x1024, .f32⟩
  | .hbm, ⟨64, _⟩ => ⟨S131072x1024, .f32⟩
  | .hbm, ⟨65, _⟩ => ⟨S_, .f32⟩
  | .hbm, ⟨66, _⟩ => ⟨S131072x1024, .f32⟩
  | .hbm, ⟨67, _⟩ => ⟨S131072x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  transposes_S2048x256_S256x2048_1_0 : S2048x256.Transposes [1, 0] S256x2048
  bcast_S2048_S1x2048_1 : S2048.BroadcastsInDim S1x2048 (![1] : Fin 1 → Fin S1x2048.rank)
  bcast_S1x2048_S131072x2048_0_1 : S1x2048.BroadcastsInDim S131072x2048 (![0, 1] : Fin 2 → Fin S131072x2048.rank)
  slices_S131072x2048_S131072x512_0_0 : S131072x2048.Slices ![0, 0] S131072x512
  slices_S131072x2048_S131072x512_0_512 : S131072x2048.Slices ![0, 512] S131072x512
  slices_S131072x2048_S131072x512_0_1024 : S131072x2048.Slices ![0, 1024] S131072x512
  slices_S131072x2048_S131072x512_0_1536 : S131072x2048.Slices ![0, 1536] S131072x512
  bcast_S_S131072x512 : S_.BroadcastsInDim S131072x512 (![] : Fin 0 → Fin S131072x512.rank)
  concatenates_S131072x1024_S131072x512_S131072x1536_d1 : Shape.Concatenates [S131072x1024, S131072x512] S131072x1536 1
  transposes_S1024x1536_S1536x1024_1_0 : S1024x1536.Transposes [1, 0] S1536x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  gather_S40x256_S131072x1_S131072x256_1_0_n_n_0_1_1256_wf : GatherDims.WF S40x256 S131072x1 S131072x256 [1] [0] [] [0] [] 1 ![1, 256]
  dot_S131072x256_S256x2048_S131072x2048_1_0_0_1_n_n_wf : DotDims.WF S131072x256 S256x2048 S131072x2048 [1] [0] [0] [1] [] []
  gather_S32768x1024_S131072x1_S131072x1024_1_0_n_n_0_1_11024_wf : GatherDims.WF S32768x1024 S131072x1 S131072x1024 [1] [0] [] [0] [] 1 ![1, 1024]
  dot_S131072x1536_S1536x1024_S131072x1024_1_0_0_1_n_n_wf : DotDims.WF S131072x1536 S1536x1024 S131072x1024 [1] [0] [0] [1] [] []

variable [Facts₀]

def gather_S40x256_S131072x1_S131072x256_1_0_n_n_0_1_1256 : GatherDims S40x256 S131072x1 S131072x256 where
  offsetDims := [1]
  collapsedSliceDims := [0]
  operandBatchingDims := []
  startIndicesBatchingDims := []
  startIndexMap := [0]
  indexVectorDim := 1
  sliceSizes := ![1, 256]
  wf := gather_S40x256_S131072x1_S131072x256_1_0_n_n_0_1_1256_wf
def dot_S131072x256_S256x2048_S131072x2048_1_0_0_1_n_n : DotDims S131072x256 S256x2048 S131072x2048 where
  lhsContracting := [1]
  rhsContracting := [0]
  lhsNonContracting := [0]
  rhsNonContracting := [1]
  lhsBatch := []
  rhsBatch := []
  wf := dot_S131072x256_S256x2048_S131072x2048_1_0_0_1_n_n_wf
def gather_S32768x1024_S131072x1_S131072x1024_1_0_n_n_0_1_11024 : GatherDims S32768x1024 S131072x1 S131072x1024 where
  offsetDims := [1]
  collapsedSliceDims := [0]
  operandBatchingDims := []
  startIndicesBatchingDims := []
  startIndexMap := [0]
  indexVectorDim := 1
  sliceSizes := ![1, 1024]
  wf := gather_S32768x1024_S131072x1_S131072x1024_1_0_n_n_0_1_11024_wf
def dot_S131072x1536_S1536x1024_S131072x1024_1_0_0_1_n_n : DotDims S131072x1536 S1536x1024 S131072x1024 where
  lhsContracting := [1]
  rhsContracting := [0]
  lhsNonContracting := [0]
  rhsNonContracting := [1]
  lhsBatch := []
  rhsBatch := []
  wf := dot_S131072x1536_S1536x1024_S131072x1024_1_0_0_1_n_n_wf

class Facts : Prop extends Facts₀ where

variable [Facts]
-- ==== Proof.Cell.lean ====
/-
  The mathematics both programs compute, one output row at a time, over the extended reals.

  A character's row is: the gate pre-activations `g j = (∑ k, x k · w j k) + b j` (2048 of them, from the
  character's 256-entry embedding row `x`), the cell's hidden value
  `h q = σ (g (1536 + q)) · tanh (σ (g q) · tanh (g (1024 + q)))` (512 of them: the input, cell and output gates; the
  forget gate multiplies a zero state and does not appear), and the output
  `max (((∑ k, e k · wa n k) + ∑ q, h q · wb n q) + bl n) 0` over the word's 1024-entry embedding row `e`.

  The two programs arrange this differently in two places only: one adds the two gate biases to the product one
  after the other where the other adds their sum (associativity of `+`), and one contracts the concatenated
  row `[e, h]` against the whole 1536-column weight where the other adds the two partial contractions (a sum over
  1536 indices split at 1024). Neither law needs a finite entry: both hold in any commutative additive monoid.
-/
import Idealize.ShloMosaic.PureOps.Ideal
import Idealize.ShloMosaic.PureOps.Ideal.Laws
import Idealize.ShloMosaic.Lib.IdealHost
import Idealize.ShloMosaic.Lib.ValueIdx

noncomputable section

namespace Cert.CharEnc

open Idealize.ShloMosaic

/-- Gate pre-activation `j` of one character: its embedding row against row `j` of the gate weights, plus the bias. -/
def gate (x : Fin 256 → EReal) (w : Fin 2048 → Fin 256 → EReal) (b : Fin 2048 → EReal) (j : Fin 2048) : EReal :=
  (∑ k : Fin 256, x k * w j k) + b j

/-- The cell's hidden value `q` from a zero state: `σ(o) · tanh (σ(i) · tanh g)` with the input gate at column `q`,
    the cell gate at `1024 + q` and the output gate at `1536 + q`. -/
def hidden (x : Fin 256 → EReal) (w : Fin 2048 → Fin 256 → EReal) (b : Fin 2048 → EReal) (q : Fin 512) : EReal :=
  Ideal.logistic (gate x w b ⟨1536 + q.val, by omega⟩)
    * Ideal.tanh (Ideal.logistic (gate x w b ⟨q.val, by omega⟩) * Ideal.tanh (gate x w b ⟨1024 + q.val, by omega⟩))

/-- Output `n` of one character: the word row against `wa`, the hidden row against `wb`, the bias, clamped at zero. -/
def row (x : Fin 256 → EReal) (e : Fin 1024 → EReal) (w : Fin 2048 → Fin 256 → EReal) (b : Fin 2048 → EReal)
    (wa : Fin 1024 → Fin 1024 → EReal) (wb : Fin 1024 → Fin 512 → EReal) (bl : Fin 1024 → EReal) (n : Fin 1024) : EReal :=
  max (((∑ k : Fin 1024, e k * wa n k) + ∑ q : Fin 512, hidden x w b q * wb n q) + bl n) (Ideal.ofBits .f32 0x00000000#32)

/-- The whole [131072, 1024] result from the rows: entry (t, n) is output `n` of character `t`, whose embedding row is
    `xrow t` and whose word's embedding row is `erow t`. Both programs' result arrays are this table. -/
def table (xrow : Fin 131072 → Fin 256 → EReal) (erow : Fin 131072 → Fin 1024 → EReal) (w : Fin 2048 → Fin 256 → EReal)
    (b : Fin 2048 → EReal) (wa : Fin 1024 → Fin 1024 → EReal) (wb : Fin 1024 → Fin 512 → EReal) (bl : Fin 1024 → EReal) :
    (⟨2, ![131072, 1024]⟩ : Shape).Idx → EReal :=
  fun i => row (xrow (i 0)) (erow (i 0)) w b wa wb bl (i 1)

/-- The table at an array index whose coordinates are (t, n). -/
theorem table_apply (xrow : Fin 131072 → Fin 256 → EReal) (erow : Fin 131072 → Fin 1024 → EReal) (w : Fin 2048 → Fin 256 → EReal)
    (b : Fin 2048 → EReal) (wa : Fin 1024 → Fin 1024 → EReal) (wb : Fin 1024 → Fin 512 → EReal) (bl : Fin 1024 → EReal)
    (i : (⟨2, ![131072, 1024]⟩ : Shape).Idx) (t : Fin 131072) (n : Fin 1024) (h0 : (i 0).val = t.val) (h1 : (i 1).val = n.val) :
    table xrow erow w b wa wb bl i = row (xrow t) (erow t) w b wa wb bl n := by
  obtain rfl : i = ValueIdx.ix2 t n := funext fun a => Fin.ext (by
    match a with
    | ⟨0, _⟩ => exact h0
    | ⟨1, _⟩ => exact h1)
  rfl

/-- A sum over 1536 indices is the sum over the first 1024 plus the sum over the last 512. -/
theorem sum_split {M : Type*} [AddCommMonoid M] (f : Fin 1536 → M) :
    ∑ k : Fin 1536, f k = (∑ k : Fin 1024, f ⟨k.val, by omega⟩) + ∑ q : Fin 512, f ⟨1024 + q.val, by omega⟩ :=
  Fin.sum_univ_add (a := 1024) (b := 512) f

/-- The two biases added one after the other are their sum added once. -/
theorem gate_two_biases (x : Fin 256 → EReal) (w : Fin 2048 → Fin 256 → EReal) (b₁ b₂ : Fin 2048 → EReal) (j : Fin 2048) :
    ((∑ k : Fin 256, x k * w j k) + b₁ j) + b₂ j = gate x w (fun j => b₁ j + b₂ j) j :=
  add_assoc _ _ _

/-- The logistic function spelt with the host's quotient, its exponential and the pattern of `1.0`. -/
theorem logistic_spelt (g : EReal) :
    Ideal.div (Ideal.ofBits .f32 0x3F800000#32) (Ideal.ofBits .f32 0x3F800000#32 + Ideal.exp (-g)) = Ideal.logistic g := by
  rw [Ideal.ofBits_one_f32]; rfl

/-- One contraction of the concatenated row `[e, h]` against a 1536-column weight is the two partial contractions added. -/
theorem row_of_concat (x : Fin 256 → EReal) (e : Fin 1024 → EReal) (w : Fin 2048 → Fin 256 → EReal) (b : Fin 2048 → EReal)
    (wl : Fin 1024 → Fin 1536 → EReal) (bl : Fin 1024 → EReal) (cat : Fin 1536 → EReal)
    (hl : ∀ k : Fin 1024, cat ⟨k.val, by omega⟩ = e k)
    (hr : ∀ q : Fin 512, cat ⟨1024 + q.val, by omega⟩ = hidden x w b q) (n : Fin 1024) :
    max ((∑ k : Fin 1536, cat k * wl n k) + bl n) (Ideal.ofBits .f32 0x00000000#32)
      = row x e w b (fun n k => wl n ⟨k.val, by omega⟩) (fun n q => wl n ⟨1024 + q.val, by omega⟩) bl n := by
  unfold row
  rw [sum_split]
  simp only [hl, hr]

end Cert.CharEnc

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KernelBlock.lean ====
/-
  The kernel body's stored value, read at one entry of a block of 512 characters.

  The body computes, for its 512 rows at once: the gate pre-activations (the rows' embeddings times the gate weights, into
  a zero accumulator, plus the bias row), the hidden values (three column windows of the gates through the logistic and
  hyperbolic-tangent functions), and the output (the word rows times one weight plus the hidden rows times the other,
  plus the bias row, clamped at zero). Entry (p, n) of the stored block is `Cert.CharEnc.row` of row p of the two
  activation blocks and of the weight blocks read column-wise: a matrix product into a zero accumulator is the plain
  sum of products over the contracted index (the general lemma of LibPlainMatmul), a column window reads its source shifted by the window's offset, a one-row
  block broadcast over the rows reads its only row, and a change of float format is the identity.
-/
import proofs.«151856_j20787641713006_1_alg».proof.Proof.Gen.KernelIdeal.Skeleton
import proofs.«151856_j20787641713006_1_alg».proof.Proof.Cell
import Idealize.ShloMosaic.Lib.Pipeline.Value
import Idealize.ShloMosaic.Lib.ValueIdx
import Idealize.ShloMosaic.Lib.ValueLayout
import Idealize.ShloMosaic.PureOps.Ideal.Laws
import proofs.«151856_j20787641713006_1_alg».proof.Proof.LibPlainMatmul

noncomputable section

namespace Cert.KernelIdeal.Block

open Cert.KernelIdeal Cert.KernelIdeal.Gen Cert.CharEnc Idealize.ShloMosaic Idealize.ShloMosaic.ValueIdx

/-! ## The three matrix products at an entry

Each printed contraction record is the plain [m, k] × [k, n] one (it differs from it in its well-formedness proof only),
so each product into the zero block is the general lemma's sum. -/

/-- The embeddings block times the gate weights: entry (p, j) sums over the 256 embedding coordinates. -/
theorem gatesDot_apply (A : FVec Ideal S512x256 .bf16) (B : FVec Ideal S256x2048 .bf16) (p : Fin 512) (j : Fin 2048) :
    matmul dot_S512x256_S256x2048_S512x2048_1_0_0_1_n_n none A B (constant S512x2048 .f32 0x00000000#32) (ix2 p j)
      = ∑ k : Fin 256, A (ix2 p k) * B (ix2 k j) :=
  Cert.Lib.matmul_plain_zero_apply (m := 512) (k := 256) (n := 2048) none A B p j

/-- The word rows times the first output weight: entry (p, n) sums over the 1024 word coordinates. -/
theorem wordDot_apply (A : FVec Ideal S512x1024 .bf16) (B : FVec Ideal S1024x1024 .bf16) (p : Fin 512) (j : Fin 1024) :
    matmul dot_S512x1024_S1024x1024_S512x1024_1_0_0_1_n_n none A B (constant S512x1024 .f32 0x00000000#32) (ix2 p j)
      = ∑ k : Fin 1024, A (ix2 p k) * B (ix2 k j) :=
  Cert.Lib.matmul_plain_zero_apply (m := 512) (k := 1024) (n := 1024) none A B p j

/-- The hidden rows times the second output weight: entry (p, n) sums over the 512 hidden coordinates. -/
theorem hiddenDot_apply (A : FVec Ideal S512x512 .bf16) (B : FVec Ideal S512x1024 .bf16) (p : Fin 512) (j : Fin 1024) :
    matmul dot_S512x512_S512x1024_S512x1024_1_0_0_1_n_n none A B (constant S512x1024 .f32 0x00000000#32) (ix2 p j)
      = ∑ k : Fin 512, A (ix2 p k) * B (ix2 k j) :=
  Cert.Lib.matmul_plain_zero_apply (m := 512) (k := 512) (n := 1024) none A B p j

/-! ## The body's three stages -/

/-- The gate pre-activations of the block's rows. -/
def gatesBlk (x0 : FVec Ideal S512x256 .bf16) (x2 : FVec Ideal S256x2048 .bf16) (x3 : FVec Ideal S1x2048 .f32) : FVec Ideal S512x2048 .f32 :=
  addf (matmul dot_S512x256_S256x2048_S512x2048_1_0_0_1_n_n none x0 x2 (constant S512x2048 .f32 0x00000000#32))
    (broadcastTo S512x2048 x3 broadcasts_S1x2048_S512x2048)

/-- The hidden values from the gates: the output gate's logistic times the hyperbolic tangent of the new cell value. -/
def hiddenBlk (g : FVec Ideal S512x2048 .f32) : FVec Ideal S512x512 .f32 :=
  mulf (logistic (extractStridedSlice S512x512 ![0, 1536] g slices_S512x2048_o0_1536_S512x512))
    (tanh (mulf (logistic (extractStridedSlice S512x512 ![0, 0] g slices_S512x2048_o0_0_S512x512))
      (tanh (extractStridedSlice S512x512 ![0, 1024] g slices_S512x2048_o0_1024_S512x512))))

/-- The output block from the word rows, the hidden rows, the two weights and the bias row. -/
def outBlk (x1 : FVec Ideal S512x1024 .bf16) (x4 : FVec Ideal S1024x1024 .bf16) (x5 : FVec Ideal S512x1024 .bf16)
    (x6 : FVec Ideal S1x1024 .f32) (h : FVec Ideal S512x512 .f32) : FVec Ideal S512x1024 .f32 :=
  maximumf (addf (addf (matmul dot_S512x1024_S1024x1024_S512x1024_1_0_0_1_n_n none x1 x4 (constant S512x1024 .f32 0x00000000#32))
        (matmul dot_S512x512_S512x1024_S512x1024_1_0_0_1_n_n none (truncf .bf16 h bitsLt_bf16_f32) x5 (constant S512x1024 .f32 0x00000000#32)))
      (broadcastTo S512x1024 x6 broadcasts_S1x1024_S512x1024))
    (broadcast S512x1024 (Scalar.ofBits .f32 0x00000000#32))

/-- The stored value is the three stages composed (its same-shape casts are the identity). -/
theorem payload_eq (x0 : FVec Ideal S512x256 .bf16) (x1 : FVec Ideal S512x1024 .bf16) (x2 : FVec Ideal S256x2048 .bf16)
    (x3 : FVec Ideal S1x2048 .f32) (x4 : FVec Ideal S1024x1024 .bf16) (x5 : FVec Ideal S512x1024 .bf16) (x6 : FVec Ideal S1x1024 .f32) :
    k0_pay1 (F := Ideal) x0 x1 x2 x3 x4 x5 x6 = outBlk x1 x4 x5 x6 (hiddenBlk (gatesBlk x0 x2 x3)) := by
  unfold k0_pay1 outBlk hiddenBlk gatesBlk
  simp only [shapeCast_self]

/-! ## Each stage at an entry -/

theorem gatesBlk_apply (x0 : FVec Ideal S512x256 .bf16) (x2 : FVec Ideal S256x2048 .bf16) (x3 : FVec Ideal S1x2048 .f32)
    (p : Fin 512) (j : Fin 2048) :
    gatesBlk x0 x2 x3 (ix2 p j) = gate (fun k => x0 (ix2 p k)) (fun j k => x2 (ix2 k j)) (fun j => x3 (ix2 (0 : Fin 1) j)) j := by
  unfold gatesBlk gate
  rw [addf_apply, gatesDot_apply, broadcastTo_1b_ab_apply]

theorem hiddenBlk_apply (g : FVec Ideal S512x2048 .f32) (p : Fin 512) (q : Fin 512) :
    hiddenBlk g (ix2 p q) = Ideal.logistic (g (ix2 p ⟨1536 + q.val, by omega⟩))
      * Ideal.tanh (Ideal.logistic (g (ix2 p ⟨q.val, by omega⟩)) * Ideal.tanh (g (ix2 p ⟨1024 + q.val, by omega⟩))) := by
  unfold hiddenBlk
  show Ideal.logistic (extractStridedSlice S512x512 ![0, 1536] g _ (ix2 p q))
      * Ideal.tanh (Ideal.logistic (extractStridedSlice S512x512 ![0, 0] g _ (ix2 p q))
        * Ideal.tanh (extractStridedSlice S512x512 ![0, 1024] g _ (ix2 p q))) = _
  rw [slice2_axis1_apply 1536 g _ p q ⟨1536 + q.val, by omega⟩ rfl,
    slice2_axis1_apply 0 g _ p q ⟨q.val, by omega⟩ (Nat.zero_add _).symm,
    slice2_axis1_apply 1024 g _ p q ⟨1024 + q.val, by omega⟩ rfl]

theorem outBlk_apply (x1 : FVec Ideal S512x1024 .bf16) (x4 : FVec Ideal S1024x1024 .bf16) (x5 : FVec Ideal S512x1024 .bf16)
    (x6 : FVec Ideal S1x1024 .f32) (h : FVec Ideal S512x512 .f32) (p : Fin 512) (n : Fin 1024) :
    outBlk x1 x4 x5 x6 h (ix2 p n)
      = max (((∑ k : Fin 1024, x1 (ix2 p k) * x4 (ix2 k n)) + ∑ q : Fin 512, h (ix2 p q) * x5 (ix2 q n)) + x6 (ix2 (0 : Fin 1) n))
          (Ideal.ofBits .f32 0x00000000#32) := by
  unfold outBlk
  rw [maximumf_apply, addf_apply, addf_apply, wordDot_apply, hiddenDot_apply, broadcastTo_1b_ab_apply]
  rfl

/-- ENTRY (p, n) OF THE STORED BLOCK: the row function of row p of the two activation blocks and the weight blocks. -/
theorem payload_apply (x0 : FVec Ideal S512x256 .bf16) (x1 : FVec Ideal S512x1024 .bf16) (x2 : FVec Ideal S256x2048 .bf16)
    (x3 : FVec Ideal S1x2048 .f32) (x4 : FVec Ideal S1024x1024 .bf16) (x5 : FVec Ideal S512x1024 .bf16) (x6 : FVec Ideal S1x1024 .f32)
    (p : Fin 512) (n : Fin 1024) :
    k0_pay1 (F := Ideal) x0 x1 x2 x3 x4 x5 x6 (ix2 p n)
      = row (fun k => x0 (ix2 p k)) (fun k => x1 (ix2 p k)) (fun j k => x2 (ix2 k j)) (fun j => x3 (ix2 (0 : Fin 1) j))
          (fun n k => x4 (ix2 k n)) (fun n q => x5 (ix2 q n)) (fun n => x6 (ix2 (0 : Fin 1) n)) n := by
  rw [payload_eq, outBlk_apply]
  unfold row Cert.CharEnc.hidden
  simp only [hiddenBlk_apply, gatesBlk_apply]

end Cert.KernelIdeal.Block

end
-- ==== Proof.KernelArray.lean ====
/-
  From the kernel's blocks to its result array.

  The grid has 256 points; point t reads rows 512 t … 512 t + 511 of the two gathered activation arrays and the whole of
  each weight and bias array, and writes back rows 512 t … 512 t + 511 of the result. So what point t writes back is block
  t of ONE function of the seven arrays the input windows read — the table of `Cert.CharEnc.row` over the arrays' rows —
  and, the 256 row blocks covering the result's 131072 rows, the result array after the run is that function.
-/
import proofs.«151856_j20787641713006_1_alg».proof.Proof.Gen.KernelIdeal.Value
import proofs.«151856_j20787641713006_1_alg».proof.Proof.KernelBlock
import Idealize.ShloMosaic.Lib.Pipeline.Value
import Idealize.ShloMosaic.Lib.Tactic

noncomputable section

namespace Cert.KernelIdeal.ArrayValue

open Cert.KernelIdeal Cert.KernelIdeal.Gen Cert.CharEnc
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The index maps, decided over the grid's 256 points -/

/-- The two activation windows and the result window move down the rows with the point; -/
theorem index_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

/-- the weight and bias windows stay on their one block. -/
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)

/-! ## The input windows' blocks as parts of their arrays -/

/-- Row p of the embeddings block at point t is row 512 t + p of the gathered embeddings array. -/
theorem block0_apply (c : Dev nD) (t : Fin cfg0.N) (p : Fin 512) (k : Fin 256) (r : Fin 131072) (hr : r.val = t.val * 512 + p.val) :
    (iblk m c 0 t : Vec Ideal S512x256 .bf16) (ix2 p k) = (V m c main_v19 : S131072x256.Idx → EReal) (ix2 r k) := by
  obtain ⟨h0, h1, -⟩ := index_rows t
  unfold iblk
  rw [View.read_apply]
  show V m c main_v19 _ = V m c main_v19 _
  refine congrArg (V m c main_v19) ?_
  funext ax
  apply Fin.ext
  match ax with
  | ⟨0, _⟩ => show win0_0.index t 0 * 512 + 1 * p.val = r.val; rw [h0, hr]; omega
  | ⟨1, _⟩ => show win0_0.index t 1 * 256 + 1 * k.val = k.val; rw [h1]; omega

/-- Row p of the word-rows block at point t is row 512 t + p of the gathered word array. -/
theorem block1_apply (c : Dev nD) (t : Fin cfg0.N) (p : Fin 512) (k : Fin 1024) (r : Fin 131072) (hr : r.val = t.val * 512 + p.val) :
    (iblk m c 1 t : Vec Ideal S512x1024 .bf16) (ix2 p k) = (V m c main_v26 : S131072x1024.Idx → EReal) (ix2 r k) := by
  obtain ⟨-, -, h0, h1, -⟩ := index_rows t
  unfold iblk
  rw [View.read_apply]
  show V m c main_v26 _ = V m c main_v26 _
  refine congrArg (V m c main_v26) ?_
  funext ax
  apply Fin.ext
  match ax with
  | ⟨0, _⟩ => show win0_1.index t 0 * 512 + 1 * p.val = r.val; rw [h0, hr]; omega
  | ⟨1, _⟩ => show win0_1.index t 1 * 1024 + 1 * k.val = k.val; rw [h1]; omega

/-- The gate-weights window's block is its whole array at every point. -/
theorem block2_eq (c : Dev nD) (t : Fin cfg0.N) :
    (iblk m c 2 t : Vec Ideal S256x2048 .bf16) = (V m c main_v5 : S256x2048.Idx → EReal) := by
  obtain ⟨h0, h1⟩ := index2 t
  funext y
  unfold iblk
  rw [View.read_apply]
  show V m c main_v5 _ = V m c main_v5 _
  refine congrArg (V m c main_v5) ?_
  funext ax
  apply Fin.ext
  match ax with
  | ⟨0, _⟩ => show win0_2.index t 0 * 256 + 1 * (y 0).val = (y 0).val; rw [h0]; omega
  | ⟨1, _⟩ => show win0_2.index t 1 * 2048 + 1 * (y 1).val = (y 1).val; rw [h1]; omega

/-- The gate-bias window's block is its whole array at every point. -/
theorem block3_eq (c : Dev nD) (t : Fin cfg0.N) :
    (iblk m c 3 t : Vec Ideal S1x2048 .f32) = (V m c main_v1 : S1x2048.Idx → EReal) := by
  obtain ⟨h0, h1⟩ := index3 t
  funext y
  unfold iblk
  rw [View.read_apply]
  show V m c main_v1 _ = V m c main_v1 _
  refine congrArg (V m c main_v1) ?_
  funext ax
  apply Fin.ext
  match ax with
  | ⟨0, _⟩ => show win0_3.index t 0 * 1 + 1 * (y 0).val = (y 0).val; rw [h0]; omega
  | ⟨1, _⟩ => show win0_3.index t 1 * 2048 + 1 * (y 1).val = (y 1).val; rw [h1]; omega

/-- The first output weight's block is its whole array at every point. -/
theorem block4_eq (c : Dev nD) (t : Fin cfg0.N) :
    (iblk m c 4 t : Vec Ideal S1024x1024 .bf16) = (V m c main_v7 : S1024x1024.Idx → EReal) := by
  obtain ⟨h0, h1⟩ := index4 t
  funext y
  unfold iblk
  rw [View.read_apply]
  show V m c main_v7 _ = V m c main_v7 _
  refine congrArg (V m c main_v7) ?_
  funext ax
  apply Fin.ext
  match ax with
  | ⟨0, _⟩ => show win0_4.index t 0 * 1024 + 1 * (y 0).val = (y 0).val; rw [h0]; omega
  | ⟨1, _⟩ => show win0_4.index t 1 * 1024 + 1 * (y 1).val = (y 1).val; rw [h1]; omega

/-- The second output weight's block is its whole array at every point. -/
theorem block5_eq (c : Dev nD) (t : Fin cfg0.N) :
    (iblk m c 5 t : Vec Ideal S512x1024 .bf16) = (V m c main_v9 : S512x1024.Idx → EReal) := by
  obtain ⟨h0, h1⟩ := index5 t
  funext y
  unfold iblk
  rw [View.read_apply]
  show V m c main_v9 _ = V m c main_v9 _
  refine congrArg (V m c main_v9) ?_
  funext ax
  apply Fin.ext
  match ax with
  | ⟨0, _⟩ => show win0_5.index t 0 * 512 + 1 * (y 0).val = (y 0).val; rw [h0]; omega
  | ⟨1, _⟩ => show win0_5.index t 1 * 1024 + 1 * (y 1).val = (y 1).val; rw [h1]; omega

/-- The output-bias window's block is its whole array at every point. -/
theorem block6_eq (c : Dev nD) (t : Fin cfg0.N) :
    (iblk m c 6 t : Vec Ideal S1x1024 .f32) = (V m c main_v10 : S1x1024.Idx → EReal) := by
  obtain ⟨h0, h1⟩ := index6 t
  funext y
  unfold iblk
  rw [View.read_apply]
  show V m c main_v10 _ = V m c main_v10 _
  refine congrArg (V m c main_v10) ?_
  funext ax
  apply Fin.ext
  match ax with
  | ⟨0, _⟩ => show win0_6.index t 0 * 1 + 1 * (y 0).val = (y 0).val; rw [h0]; omega
  | ⟨1, _⟩ => show win0_6.index t 1 * 1024 + 1 * (y 1).val = (y 1).val; rw [h1]; omega

/-! ## The result as one function of the seven arrays -/

/-- The table of rows over the arrays the input windows read: the activations row by row, the weights column-wise
    (they arrive transposed), the biases from their one row. -/
def ofWindows (W0 : S131072x256.Idx → EReal) (W1 : S131072x1024.Idx → EReal) (W2 : S256x2048.Idx → EReal) (W3 : S1x2048.Idx → EReal)
    (W4 : S1024x1024.Idx → EReal) (W5 : S512x1024.Idx → EReal) (W6 : S1x1024.Idx → EReal) : S131072x1024.Idx → EReal :=
  table (fun t k => W0 (ix2 t k)) (fun t k => W1 (ix2 t k)) (fun j k => W2 (ix2 k j)) (fun j => W3 (ix2 (0 : Fin 1) j))
    (fun n k => W4 (ix2 k n)) (fun n q => W5 (ix2 q n)) (fun n => W6 (ix2 (0 : Fin 1) n))

/-- The same table over the arrays the windows' arrays were computed from: the two gathered arrays `G0`, `G1` row by row,
    the gate weights `A4` untransposed, the two gate biases `A5`, `A6` added, the output weight `A7` by its first 1024 and
    last 512 columns, the output bias `A8` — given what each window array reads at an entry. -/
theorem ofWindows_of_reads (W0 : S131072x256.Idx → EReal) (W1 : S131072x1024.Idx → EReal) (W2 : S256x2048.Idx → EReal)
    (W3 : S1x2048.Idx → EReal) (W4 : S1024x1024.Idx → EReal) (W5 : S512x1024.Idx → EReal) (W6 : S1x1024.Idx → EReal)
    (G0 : S131072x256.Idx → EReal) (G1 : S131072x1024.Idx → EReal) (A4 : S2048x256.Idx → EReal) (A5 A6 : S2048.Idx → EReal)
    (A7 : S1024x1536.Idx → EReal) (A8 : S1024.Idx → EReal)
    (h0 : W0 = G0) (h1 : W1 = G1) (h2 : ∀ (k : Fin 256) (j : Fin 2048), W2 (ix2 k j) = A4 (ix2 j k))
    (h3 : ∀ j : Fin 2048, W3 (ix2 (0 : Fin 1) j) = A5 (ix1 j) + A6 (ix1 j))
    (h4 : ∀ (k : Fin 1024) (n : Fin 1024), W4 (ix2 k n) = A7 (ix2 n ⟨k.val, by omega⟩))
    (h5 : ∀ (q : Fin 512) (n : Fin 1024), W5 (ix2 q n) = A7 (ix2 n ⟨1024 + q.val, by omega⟩))
    (h6 : ∀ n : Fin 1024, W6 (ix2 (0 : Fin 1) n) = A8 (ix1 n)) :
    ofWindows W0 W1 W2 W3 W4 W5 W6
      = table (fun t k => G0 (ix2 t k)) (fun t k => G1 (ix2 t k)) (fun j k => A4 (ix2 j k)) (fun j => A5 (ix1 j) + A6 (ix1 j))
          (fun n k => A7 (ix2 n ⟨k.val, by omega⟩)) (fun n q => A7 (ix2 n ⟨1024 + q.val, by omega⟩)) (fun n => A8 (ix1 n)) := by
  subst h0 h1
  unfold ofWindows
  simp only [h2, h3, h4, h5, h6]

/-- WHAT POINT t WRITES BACK is block t of that function. -/
theorem flushed_eq (c : Dev nD) (t : Fin cfg0.N) :
    (dats m 0 c).flushed 7 t = ((cfg0.win 7).blk t).view.read (Elt Ideal) (ofWindows (V m c main_v19) (V m c main_v26) (V m c main_v5) (V m c main_v1) (V m c main_v7) (V m c main_v9) (V m c main_v10)) := by
  obtain ⟨-, -, -, -, h0, h1⟩ := index_rows t
  have ht : t.val < 256 := lt_of_lt_of_eq t.isLt N_0
  rw [Value.flushed7]
  unfold out0_7
  rw [View.canon_unit_zero zero_offsets]
  simp only [View.ld_unit_zero (S := S512x256) zero_offsets, View.ld_unit_zero (S := S512x1024) zero_offsets,
    View.ld_unit_zero (S := S256x2048) zero_offsets, View.ld_unit_zero (S := S1x2048) zero_offsets,
    View.ld_unit_zero (S := S1024x1024) zero_offsets, View.ld_unit_zero (S := S1x1024) zero_offsets]
  rw [block2_eq, block3_eq, block4_eq, block5_eq, block6_eq]
  funext y
  obtain ⟨p, n, rfl⟩ : ∃ (p : Fin 512) (n : Fin 1024), y = ix2 p n := ⟨y 0, y 1, eq_ix2 y⟩
  show k0_pay1 (F := Ideal) (iblk m c 0 t) (iblk m c 1 t) (V m c main_v5) (V m c main_v1) (V m c main_v7) (V m c main_v9) (V m c main_v10) (ix2 p n)
    = ofWindows (V m c main_v19) (V m c main_v26) (V m c main_v5) (V m c main_v1) (V m c main_v7) (V m c main_v9) (V m c main_v10) (((cfg0.win 7).blk t).view.emb (ix2 p n))
  refine (Block.payload_apply (iblk m c 0 t) (iblk m c 1 t) (V m c main_v5) (V m c main_v1) (V m c main_v7) (V m c main_v9)
    (V m c main_v10) p n).trans (Eq.symm ?_)
  unfold ofWindows
  refine (table_apply _ _ _ _ _ _ _ _ ⟨t.val * 512 + p.val, by omega⟩ n ?_ ?_).trans ?_
  · show win0_7.index t 0 * 512 + 1 * p.val = t.val * 512 + p.val
    rw [h0]; omega
  · show win0_7.index t 1 * 1024 + 1 * n.val = n.val
    rw [h1]; omega
  · have e0 : (fun k : Fin 256 => (iblk m c 0 t : Vec Ideal S512x256 .bf16) (ix2 p k))
        = fun k => (V m c main_v19 : S131072x256.Idx → EReal) (ix2 ⟨t.val * 512 + p.val, by omega⟩ k) :=
      funext fun k => block0_apply m c t p k _ rfl
    have e1 : (fun k : Fin 1024 => (iblk m c 1 t : Vec Ideal S512x1024 .bf16) (ix2 p k))
        = fun k => (V m c main_v26 : S131072x1024.Idx → EReal) (ix2 ⟨t.val * 512 + p.val, by omega⟩ k) :=
      funext fun k => block1_apply m c t p k _ rfl
    rw [e0, e1]

/-- The 256 row blocks cover the result: row r is in the block of point r / 512. -/
theorem cover (i : S131072x1024.Idx) : ∃ t : Fin cfg0.N, (cfg0.win 7).flush t = true ∧ i ∈ ((cfg0.win 7).blk t).view.set := by
  have hi0 : (i 0).val < 131072 := (i 0).isLt
  have hi1 : (i 1).val < 1024 := (i 1).isLt
  obtain ⟨t, ht⟩ : ∃ t : Fin cfg0.N, t.val = (i 0).val / 512 := ⟨⟨(i 0).val / 512, by rw [show cfg0.N = 256 from N_0]; omega⟩, rfl⟩
  obtain ⟨-, -, -, -, h0, h1⟩ := index_rows t
  refine ⟨t, flush0_7 t, ?_⟩
  show i ∈ ((View.whole main_v27).slice (win0_7.rect t)).set
  rw [View.set_slice_whole, Rect.mem_set_unit]
  intro ax
  match ax with
  | ⟨0, _⟩ =>
    show win0_7.index t 0 * 512 ≤ (i 0).val ∧ (i 0).val < win0_7.index t 0 * 512 + 512
    rw [h0, ht]; omega
  | ⟨1, _⟩ =>
    show win0_7.index t 1 * 1024 ≤ (i 1).val ∧ (i 1).val < win0_7.index t 1 * 1024 + 1024
    rw [h1]; omega

/-- THE RESULT ARRAY after the run. -/
theorem final (c : Dev nD) : (dats m 0 c).arrAt 7 cfg0.N = ofWindows (V m c main_v19) (V m c main_v26) (V m c main_v5) (V m c main_v1) (V m c main_v7) (V m c main_v9) (V m c main_v10) :=
  (dats m 0 c).arrAt_eq_of_cover 7 _ (fun t _ => flushed_eq m c t) cover

/-- The kernel's run with the result array named: the table over the window arrays as the region finds them. -/
theorem run : θ_run defs (onTc (τ := τ) (main (F := Ideal))) ⟨m, fun _ => 0, ρ⟩ fun r => ∀ c : Dev nD,
      r.2.mem ((c : Thread nD τ).loc main_v27) = ofWindows (V m c main_v19) (V m c main_v26) (V m c main_v5) (V m c main_v1) (V m c main_v7) (V m c main_v9) (V m c main_v10)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.ArrayValue

end
-- ==== Proof.KernelHost.lean ====
/-
  The arrays the kernel's input windows read, as the host computed them from the arguments.

  Before the kernel is launched the host adds the two gate biases and lays the sum out as one row; cuts the output weight
  into its first 1024 and last 512 columns and transposes each; transposes the gate weights; lays the output bias out as
  one row; and gathers the characters' embedding rows and the words' embedding rows. Every change of float format on the
  way is the identity over the extended reals. Read at an entry: a transposed array at (k, j) is the array at (j, k), a
  column window from offset o at column k is the array at column o + k, and a vector laid out as one row reads the vector.
-/
import proofs.«151856_j20787641713006_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The argument arrays, and the window arrays as the region finds them, by name -/

abbrev wordTable (c : Dev nD) : (⟨S32768x1024, .f32⟩ : BufTy).Contents (Elt Ideal) := m ((c : Thread nD τ).loc main_arg0)
abbrev charIds (c : Dev nD) : (⟨S131072, .i32⟩ : BufTy).Contents (Elt Ideal) := m ((c : Thread nD τ).loc main_arg1)
abbrev wordIds (c : Dev nD) : (⟨S131072, .i32⟩ : BufTy).Contents (Elt Ideal) := m ((c : Thread nD τ).loc main_arg2)
abbrev charTable (c : Dev nD) : (⟨S40x256, .f32⟩ : BufTy).Contents (Elt Ideal) := m ((c : Thread nD τ).loc main_arg3)
abbrev gateW (c : Dev nD) : (⟨S2048x256, .f32⟩ : BufTy).Contents (Elt Ideal) := m ((c : Thread nD τ).loc main_arg4)
abbrev biasIh (c : Dev nD) : (⟨S2048, .f32⟩ : BufTy).Contents (Elt Ideal) := m ((c : Thread nD τ).loc main_arg5)
abbrev biasHh (c : Dev nD) : (⟨S2048, .f32⟩ : BufTy).Contents (Elt Ideal) := m ((c : Thread nD τ).loc main_arg6)
abbrev outW (c : Dev nD) : (⟨S1024x1536, .f32⟩ : BufTy).Contents (Elt Ideal) := m ((c : Thread nD τ).loc main_arg7)
abbrev outB (c : Dev nD) : (⟨S1024, .f32⟩ : BufTy).Contents (Elt Ideal) := m ((c : Thread nD τ).loc main_arg8)

abbrev winCharRows (c : Dev nD) : (⟨S131072x256, .bf16⟩ : BufTy).Contents (Elt Ideal) := V m c main_v19
abbrev winWordRows (c : Dev nD) : (⟨S131072x1024, .bf16⟩ : BufTy).Contents (Elt Ideal) := V m c main_v26
abbrev winGateW (c : Dev nD) : (⟨S256x2048, .bf16⟩ : BufTy).Contents (Elt Ideal) := V m c main_v5
abbrev winGateB (c : Dev nD) : (⟨S1x2048, .f32⟩ : BufTy).Contents (Elt Ideal) := V m c main_v1
abbrev winWordW (c : Dev nD) : (⟨S1024x1024, .bf16⟩ : BufTy).Contents (Elt Ideal) := V m c main_v7
abbrev winHiddenW (c : Dev nD) : (⟨S512x1024, .bf16⟩ : BufTy).Contents (Elt Ideal) := V m c main_v9
abbrev winOutB (c : Dev nD) : (⟨S1x1024, .f32⟩ : BufTy).Contents (Elt Ideal) := V m c main_v10

/-! ## Each window's array as a term of the arguments -/

theorem gateWeights_eq (c : Dev nD) : winGateW m c
    = truncf (F := Ideal) (φ := .f32) .bf16 (transpose S256x2048 [1, 0] (gateW m c) transposes_S2048x256_S256x2048_1_0) bitsLt_bf16_f32 := by
  dsimp only [winGateW, gateW, V, hostOps0]; after_results <;> rfl

theorem gateBias_eq (c : Dev nD) : winGateB m c
    = shapeCast S1x2048 (addf (F := Ideal) (φ := .f32) (biasIh m c) (biasHh m c)) shapeCasts_S2048_S1x2048 := by
  dsimp only [winGateB, biasIh, biasHh, V, hostOps0]; after_results <;> rfl

theorem wordWeights_eq (c : Dev nD) : winWordW m c
    = truncf (F := Ideal) (φ := .f32) .bf16 (transpose S1024x1024 [1, 0]
        (extractStridedSlice S1024x1024 ![0, 0] (outW m c) slices_S1024x1536_S1024x1024_0_0)
        transposes_S1024x1024_S1024x1024_1_0) bitsLt_bf16_f32 := by
  dsimp only [winWordW, outW, V, hostOps0]; after_results <;> rfl

theorem hiddenWeights_eq (c : Dev nD) : winHiddenW m c
    = truncf (F := Ideal) (φ := .f32) .bf16 (transpose S512x1024 [1, 0]
        (extractStridedSlice S1024x512 ![0, 1024] (outW m c) slices_S1024x1536_S1024x512_0_1024)
        transposes_S1024x512_S512x1024_1_0) bitsLt_bf16_f32 := by
  dsimp only [winHiddenW, outW, V, hostOps0]; after_results <;> rfl

theorem outBias_eq (c : Dev nD) : winOutB m c = shapeCast S1x1024 (outB m c) shapeCasts_S1024_S1x1024 := by
  dsimp only [winOutB, outB, V, hostOps0]; after_results <;> rfl

/-- The row index a gather uses for an id: the id itself, or the id counted from the table's end when it is negative
    (the indexing operation's normalisation), as a one-column array. -/
abbrev rowIndex (ids : (⟨S131072, .i32⟩ : BufTy).Contents (Elt Ideal)) (extent : BitVec 32) : (⟨S131072x1, .i32⟩ : BufTy).Contents (Elt Ideal) :=
  broadcastInDim S131072x1 ![0] bcast_S131072_S131072x1_0
    (select (cmpi .slt ids (broadcastInDim S131072 ![] bcast_S_S131072 (constantI S_ 32 0#32)))
      (addi ids (broadcastInDim S131072 ![] bcast_S_S131072 (constantI S_ 32 extent))) ids)

/-- The characters' embedding rows: the gather of the embedding table at the character ids. -/
theorem charRows_eq (c : Dev nD) : winCharRows m c
    = Host.gather gather_S40x256_S131072x1_S131072x256_1_0_n_n_0_1_1256
        (truncf (F := Ideal) (φ := .f32) .bf16 (charTable m c) bitsLt_bf16_f32) (rowIndex (charIds m c) 40#32) := by
  dsimp only [winCharRows, charTable, charIds, rowIndex, V, hostOps0]; after_results_simp <;> rfl

/-- The words' embedding rows: the gather of the word table at the word ids. -/
theorem wordRows_eq (c : Dev nD) : winWordRows m c
    = Host.gather gather_S32768x1024_S131072x1_S131072x1024_1_0_n_n_0_1_11024
        (truncf (F := Ideal) (φ := .f32) .bf16 (wordTable m c) bitsLt_bf16_f32) (rowIndex (wordIds m c) 32768#32) := by
  dsimp only [winWordRows, wordTable, wordIds, rowIndex, V, hostOps0]; after_results_simp <;> rfl

/-! ## The weight and bias arrays at an entry -/

/-- The transposed gate weights at (k, j) are the gate weights at (j, k). -/
theorem gateWeights_apply (c : Dev nD) (k : Fin 256) (j : Fin 2048) : winGateW m c (ix2 k j) = gateW m c (ix2 j k) := by
  rw [gateWeights_eq]
  exact transpose_ix2_apply (gateW m c) transposes_S2048x256_S256x2048_1_0 k j

/-- The bias row at column j is the sum of the two gate biases at j. -/
theorem gateBias_apply (c : Dev nD) (j : Fin 2048) :
    winGateB m c (ix2 (0 : Fin 1) j) = biasIh m c (ix1 j) + biasHh m c (ix1 j) := by
  rw [gateBias_eq]
  exact shapeCast_a_1a_apply (addf (F := Ideal) (φ := .f32) (biasIh m c) (biasHh m c)) shapeCasts_S2048_S1x2048 0 j

/-- The first output weight, transposed, at (k, n) is the output weight at (n, k). -/
theorem wordWeights_apply (c : Dev nD) (k : Fin 1024) (n : Fin 1024) :
    winWordW m c (ix2 k n) = outW m c (ix2 n ⟨k.val, by omega⟩) := by
  rw [wordWeights_eq]
  show transpose S1024x1024 [1, 0] (extractStridedSlice S1024x1024 ![0, 0] (outW m c) slices_S1024x1536_S1024x1024_0_0)
    transposes_S1024x1024_S1024x1024_1_0 (ix2 k n) = _
  refine (transpose_ix2_apply (extractStridedSlice S1024x1024 ![0, 0] (outW m c) slices_S1024x1536_S1024x1024_0_0)
    transposes_S1024x1024_S1024x1024_1_0 k n).trans ?_
  exact slice2_axis1_apply 0 (outW m c) slices_S1024x1536_S1024x1024_0_0 n k ⟨k.val, by omega⟩ (Nat.zero_add _).symm

/-- The second output weight, transposed, at (q, n) is the output weight at (n, 1024 + q). -/
theorem hiddenWeights_apply (c : Dev nD) (q : Fin 512) (n : Fin 1024) :
    winHiddenW m c (ix2 q n) = outW m c (ix2 n ⟨1024 + q.val, by omega⟩) := by
  rw [hiddenWeights_eq]
  show transpose S512x1024 [1, 0] (extractStridedSlice S1024x512 ![0, 1024] (outW m c) slices_S1024x1536_S1024x512_0_1024)
    transposes_S1024x512_S512x1024_1_0 (ix2 q n) = _
  refine (transpose_ix2_apply (extractStridedSlice S1024x512 ![0, 1024] (outW m c) slices_S1024x1536_S1024x512_0_1024)
    transposes_S1024x512_S512x1024_1_0 q n).trans ?_
  exact slice2_axis1_apply 1024 (outW m c) slices_S1024x1536_S1024x512_0_1024 n q ⟨1024 + q.val, by omega⟩ rfl

/-- The output-bias row at column n is the output bias at n. -/
theorem outBias_apply (c : Dev nD) (n : Fin 1024) : winOutB m c (ix2 (0 : Fin 1) n) = outB m c (ix1 n) := by
  rw [outBias_eq]
  exact shapeCast_a_1a_apply (outB m c) shapeCasts_S1024_S1x1024 0 n

end Cert.KernelIdeal.HostSide

end
-- ==== Proof.RefRow.lean ====
/-
  The reference's result, read at one entry.

  The reference computes whole arrays on the host: the characters' embedding rows (a gather), their product with the
  transposed gate weights, the two biases added one after the other, the four column windows of the gates, the logistic
  function spelt `1 / (1 + exp (-g))`, the hidden values, the word rows (a second gather) joined with the hidden rows
  along the columns, the product of the joined rows with the transposed output weight, the bias, the clamp at zero.
  Entry (t, n) of the last array is `Cert.CharEnc.row` of row t of the two gathered arrays and of the weights as given:
  the host's product is the sum of products over the contracted index, a transposed weight read at (k, j) is the weight
  at (j, k), a broadcast bias reads its one entry, the joined row's first 1024 entries are the word row and its last 512
  the hidden row. The two gathers are never opened: which row they pick is the same in both programs.
-/
import proofs.«151856_j20787641713006_1_alg».proof.Proof.Gen.ReferenceIdeal.Read
import proofs.«151856_j20787641713006_1_alg».proof.Proof.Cell
import Idealize.ShloMosaic.Lib.Pipeline.Value
import Idealize.ShloMosaic.Lib.ValueIdx

noncomputable section

namespace Cert.ReferenceIdeal.RowValue

open Cert.ReferenceIdeal Cert.ReferenceIdeal.Gen Cert.ReferenceIdeal.Read Cert.CharEnc
open Idealize.ShloMosaic Idealize.ShloMosaic.ValueIdx

variable (x0 : (⟨S32768x1024, .f32⟩ : BufTy).Contents (Elt Ideal)) (x1 x2 : (⟨S131072, .i32⟩ : BufTy).Contents (Elt Ideal)) (x3 : (⟨S40x256, .f32⟩ : BufTy).Contents (Elt Ideal)) (x4 : (⟨S2048x256, .f32⟩ : BufTy).Contents (Elt Ideal)) (x5 x6 : (⟨S2048, .f32⟩ : BufTy).Contents (Elt Ideal)) (x7 : (⟨S1024x1536, .f32⟩ : BufTy).Contents (Elt Ideal)) (x8 : (⟨S1024, .f32⟩ : BufTy).Contents (Elt Ideal))

/-- The characters' gathered embedding rows, row by row. -/
abbrev xrow (t : Fin 131072) (k : Fin 256) : EReal := val_main_v6 (F := Ideal) x1 x3 (ix2 t k)

/-- The words' gathered embedding rows, row by row. -/
abbrev erow (t : Fin 131072) (k : Fin 1024) : EReal := val_main_v41 (F := Ideal) x0 x2 (ix2 t k)

/-- The gate pre-activations: the product with the transposed weight, then the two biases, one after the other. -/
theorem gates_apply (t : Fin 131072) (j : Fin 2048) :
    val_main_v14 (F := Ideal) x1 x3 x4 x5 x6 (ix2 t j)
      = gate (xrow x1 x3 t) (fun j k => x4 (ix2 j k)) (fun j => x5 (ix1 j) + x6 (ix1 j)) j := by
  have el : ∀ k : Fin 256, lidx_main_v8 (ix2 t j) k = ix2 t k :=
    fun k => funext fun a => Fin.ext (by match a with | ⟨0, _⟩ => rfl | ⟨1, _⟩ => rfl)
  have er : ∀ k : Fin 256, idx_main_v7 (ridx_main_v8 (ix2 t j) k) = ix2 j k :=
    fun k => funext fun a => Fin.ext (by match a with | ⟨0, _⟩ => rfl | ⟨1, _⟩ => rfl)
  have e5 : idx_main_v9 (idx_main_v10 (ix2 t j)) = ix1 j := funext fun a => Fin.ext (by match a with | ⟨0, _⟩ => rfl)
  have e6 : idx_main_v12 (idx_main_v13 (ix2 t j)) = ix1 j := funext fun a => Fin.ext (by match a with | ⟨0, _⟩ => rfl)
  rw [val_main_v14_apply, val_main_v11_apply, val_main_v8_apply, val_main_v10_apply, val_main_v9_apply, val_main_v13_apply,
    val_main_v12_apply, e5, e6]
  simp only [val_main_v7_apply, el, er]
  exact gate_two_biases (xrow x1 x3 t) (fun j k => x4 (ix2 j k)) (fun j => x5 (ix1 j)) (fun j => x6 (ix1 j)) j

/-- The hidden values: the three gate windows through the spelt logistic and the hyperbolic tangent. -/
theorem hidden_apply (t : Fin 131072) (q : Fin 512) :
    val_main_v34 (F := Ideal) x1 x3 x4 x5 x6 (ix2 t q)
      = Cert.CharEnc.hidden (xrow x1 x3 t) (fun j k => x4 (ix2 j k)) (fun j => x5 (ix1 j) + x6 (ix1 j)) q := by
  have e15 : idx_main_v15 (ix2 t q) = ix2 t ⟨q.val, by omega⟩ :=
    funext fun a => Fin.ext (by match a with | ⟨0, _⟩ => rfl | ⟨1, _⟩ => rfl)
  have e17 : idx_main_v17 (ix2 t q) = ix2 t ⟨1024 + q.val, by omega⟩ :=
    funext fun a => Fin.ext (by match a with | ⟨0, _⟩ => rfl | ⟨1, _⟩ => rfl)
  have e18 : idx_main_v18 (ix2 t q) = ix2 t ⟨1536 + q.val, by omega⟩ :=
    funext fun a => Fin.ext (by match a with | ⟨0, _⟩ => rfl | ⟨1, _⟩ => rfl)
  rw [val_main_v34_apply, val_main_v32_apply, val_main_v33_apply, val_main_v26_apply, val_main_v24_apply, val_main_v25_apply,
    val_main_v31_apply, val_main_v30_apply, val_main_v29_apply, val_main_v28_apply, val_main_v27_apply, val_main_v18_apply,
    val_main_v23_apply, val_main_v22_apply, val_main_v21_apply, val_main_v20_apply, val_main_v19_apply, val_main_v15_apply,
    val_main_v17_apply, val_main_cst_apply, val_main_cst_1_apply, val_main_cst_2_apply, val_main_cst_3_apply, e15, e17, e18,
    gates_apply, gates_apply, gates_apply]
  simp only [Ideal.hostDivf_def, Ideal.hostUnary_exp_def, Ideal.hostUnary_tanh_def, Ideal.hostNegf_def, Ideal.negf_def,
    Ideal.mulf_def, Ideal.addf_def, Ideal.ofBits_def, logistic_spelt]
  rfl

/-- The joined row's first 1024 entries are the word's row, -/
theorem joined_left (t : Fin 131072) (n : Fin 1024) (k : Fin 1024) :
    val_main_v42 (F := Ideal) x0 x1 x2 x3 x4 x5 x6 (lidx_main_v44 (ix2 t n) ⟨k.val, by omega⟩) = erow x0 x2 t k := by
  show _ = val_main_v41 (F := Ideal) x0 x2 (ix2 t k)
  unfold val_main_v42
  generalize val_main_v41 (F := Ideal) x0 x2 = A
  generalize val_main_v34 (F := Ideal) x1 x3 x4 x5 x6 = B
  exact concatenate_pair_apply_left (1 : Fin S131072x1536.rank) A B _ (lidx_main_v44 (ix2 t n) ⟨k.val, by omega⟩) rfl (ix2 t k)
    (fun b => by match b with | ⟨0, _⟩ => rfl | ⟨1, _⟩ => rfl)

/-- and its last 512 the hidden row. -/
theorem joined_right (t : Fin 131072) (n : Fin 1024) (q : Fin 512) :
    val_main_v42 (F := Ideal) x0 x1 x2 x3 x4 x5 x6 (lidx_main_v44 (ix2 t n) ⟨1024 + q.val, by omega⟩)
      = val_main_v34 (F := Ideal) x1 x3 x4 x5 x6 (ix2 t q) := by
  unfold val_main_v42
  generalize val_main_v41 (F := Ideal) x0 x2 = A
  generalize val_main_v34 (F := Ideal) x1 x3 x4 x5 x6 = B
  exact concatenate_pair_apply_right (1 : Fin S131072x1536.rank) A B _ (lidx_main_v44 (ix2 t n) ⟨1024 + q.val, by omega⟩) rfl rfl (ix2 t q)
    (fun b hb => by
      match b with
      | ⟨0, _⟩ => rfl
      | ⟨1, _⟩ => exact absurd rfl hb)
    (by show q.val + 1024 = 1024 + q.val; omega)

/-- ENTRY (t, n) OF THE REFERENCE'S RESULT is the row function of character t's two gathered rows. -/
theorem result_apply (t : Fin 131072) (n : Fin 1024) :
    val_main_v48 (F := Ideal) x0 x1 x2 x3 x4 x5 x6 x7 x8 (ix2 t n)
      = row (xrow x1 x3 t) (erow x0 x2 t) (fun j k => x4 (ix2 j k)) (fun j => x5 (ix1 j) + x6 (ix1 j))
          (fun n k => x7 (ix2 n ⟨k.val, by omega⟩)) (fun n q => x7 (ix2 n ⟨1024 + q.val, by omega⟩)) (fun n => x8 (ix1 n)) n := by
  have e7 : ∀ k : Fin 1536, idx_main_v43 (ridx_main_v44 (ix2 t n) k) = ix2 n k :=
    fun k => funext fun a => Fin.ext (by match a with | ⟨0, _⟩ => rfl | ⟨1, _⟩ => rfl)
  have e8 : idx_main_v45 (idx_main_v46 (ix2 t n)) = ix1 n := funext fun a => Fin.ext (by match a with | ⟨0, _⟩ => rfl)
  rw [val_main_v48_apply, val_main_v47_apply, val_main_v44_apply, val_main_v46_apply, val_main_v45_apply,
    val_main_call0_v0_apply, val_main_call0_cst_apply, e8]
  simp only [val_main_v43_apply, e7]
  exact row_of_concat (xrow x1 x3 t) (erow x0 x2 t) (fun j k => x4 (ix2 j k)) (fun j => x5 (ix1 j) + x6 (ix1 j))
    (fun n k => x7 (ix2 n k)) (fun n => x8 (ix1 n))
    (fun k => val_main_v42 (F := Ideal) x0 x1 x2 x3 x4 x5 x6 (lidx_main_v44 (ix2 t n) k))
    (fun k => joined_left x0 x1 x2 x3 x4 x5 x6 t n k)
    (fun q => (joined_right x0 x1 x2 x3 x4 x5 x6 t n q).trans (hidden_apply x1 x3 x4 x5 x6 t q)) n

/-- THE REFERENCE'S RESULT ARRAY is the table of those rows. -/
theorem result_eq :
    val_main_v48 (F := Ideal) x0 x1 x2 x3 x4 x5 x6 x7 x8
      = table (xrow x1 x3) (erow x0 x2) (fun j k => x4 (ix2 j k)) (fun j => x5 (ix1 j) + x6 (ix1 j))
          (fun n k => x7 (ix2 n ⟨k.val, by omega⟩)) (fun n q => x7 (ix2 n ⟨1024 + q.val, by omega⟩)) (fun n => x8 (ix1 n)) := by
  funext i
  obtain ⟨t, n, rfl⟩ : ∃ (t : Fin 131072) (n : Fin 1024), i = ix2 t n := ⟨i 0, i 1, eq_ix2 i⟩
  exact result_apply x0 x1 x2 x3 x4 x5 x6 x7 x8 t n

end Cert.ReferenceIdeal.RowValue

end
-- ==== Proof.Agree.lean ====
/-
  The two programs' results are one function of the arguments, and the certificate's claims.

  The kernel's result array is the table of `Cert.CharEnc.row` over the arrays its windows read (the blocks-to-array
  step), and those arrays are the host's gathers, transposes, column windows and bias sum of the arguments; the reference's
  result is the same table over its own gathers and the arguments as given. What is left is that the two programs gather
  the same rows: each takes row `id` (or `id + extent` for a negative id) of the same table — the kernel's copy of the
  table differs by a change of float format only, the identity over the extended reals — so the two gathers are one term.
-/
import proofs.«151856_j20787641713006_1_alg».proof.Defs
import proofs.«151856_j20787641713006_1_alg».proof.Proof.Gen.Kernel.Frame
import proofs.«151856_j20787641713006_1_alg».proof.Proof.Gen.Pre_finite_inputs
import proofs.«151856_j20787641713006_1_alg».proof.Proof.KernelArray
import proofs.«151856_j20787641713006_1_alg».proof.Proof.KernelHost
import proofs.«151856_j20787641713006_1_alg».proof.Proof.RefRow

noncomputable section

namespace Cert.Proof.Agree

open Idealize.ShloMosaic Idealize.ShloMosaic.TcCoe Idealize.SL.Sem Idealize.ShloMosaic.ValueIdx Cert.CharEnc

/-! ## Both programs gather the same rows -/

/-- The characters' rows: the kernel's gather from the re-formatted embedding table is the reference's gather. -/
theorem charRows_agree (E : (⟨Cert.ReferenceIdeal.S40x256, .f32⟩ : BufTy).Contents (Elt Ideal))
    (ids : (⟨Cert.ReferenceIdeal.S131072, .i32⟩ : BufTy).Contents (Elt Ideal)) :
    Host.gather Cert.KernelIdeal.gather_S40x256_S131072x1_S131072x256_1_0_n_n_0_1_1256
        (truncf (F := Ideal) (φ := .f32) .bf16 E (by decide)) (Cert.KernelIdeal.HostSide.rowIndex ids 40#32)
      = Cert.ReferenceIdeal.Read.val_main_v6 (F := Ideal) ids E := by
  unfold Cert.ReferenceIdeal.Read.val_main_v6 Cert.ReferenceIdeal.Read.val_main_v5 Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c Cert.ReferenceIdeal.Read.val_main_c_0
  rfl

/-- The words' rows likewise. -/
theorem wordRows_agree (E : (⟨Cert.ReferenceIdeal.S32768x1024, .f32⟩ : BufTy).Contents (Elt Ideal))
    (ids : (⟨Cert.ReferenceIdeal.S131072, .i32⟩ : BufTy).Contents (Elt Ideal)) :
    Host.gather Cert.KernelIdeal.gather_S32768x1024_S131072x1_S131072x1024_1_0_n_n_0_1_11024
        (truncf (F := Ideal) (φ := .f32) .bf16 E (by decide)) (Cert.KernelIdeal.HostSide.rowIndex ids 32768#32)
      = Cert.ReferenceIdeal.Read.val_main_v41 (F := Ideal) E ids := by
  unfold Cert.ReferenceIdeal.Read.val_main_v41 Cert.ReferenceIdeal.Read.val_main_v40 Cert.ReferenceIdeal.Read.val_main_v39 Cert.ReferenceIdeal.Read.val_main_v38 Cert.ReferenceIdeal.Read.val_main_v37
    Cert.ReferenceIdeal.Read.val_main_v36 Cert.ReferenceIdeal.Read.val_main_v35 Cert.ReferenceIdeal.Read.val_main_c_4 Cert.ReferenceIdeal.Read.val_main_c_5
  rfl

/-! ## The kernel's result over the arguments -/

section
open Cert.KernelIdeal Cert.KernelIdeal.Gen Cert.KernelIdeal.HostSide

variable (m : (ℓ : Loc Cert.KernelIdeal.nD Cert.KernelIdeal.τ Cert.KernelIdeal.sig) → Buf (Elt Ideal) ℓ)

/-- The kernel's result array: the table over the two gathered arrays and the arguments. -/
theorem kernel_result (c : Dev Cert.KernelIdeal.nD) :
    Cert.KernelIdeal.ArrayValue.ofWindows (V m c main_v19) (V m c main_v26) (V m c main_v5) (V m c main_v1) (V m c main_v7) (V m c main_v9) (V m c main_v10)
      = table
          (fun t k => Host.gather gather_S40x256_S131072x1_S131072x256_1_0_n_n_0_1_1256
            (truncf (F := Ideal) (φ := .f32) .bf16 (charTable m c) (by decide)) (rowIndex (charIds m c) 40#32) (ix2 t k))
          (fun t k => Host.gather gather_S32768x1024_S131072x1_S131072x1024_1_0_n_n_0_1_11024
            (truncf (F := Ideal) (φ := .f32) .bf16 (wordTable m c) (by decide)) (rowIndex (wordIds m c) 32768#32) (ix2 t k))
          (fun j k => gateW m c (ix2 j k)) (fun j => biasIh m c (ix1 j) + biasHh m c (ix1 j))
          (fun n k => outW m c (ix2 n ⟨k.val, by omega⟩)) (fun n q => outW m c (ix2 n ⟨1024 + q.val, by omega⟩))
          (fun n => outB m c (ix1 n)) :=
  Cert.KernelIdeal.ArrayValue.ofWindows_of_reads (winCharRows m c) (winWordRows m c) (winGateW m c) (winGateB m c) (winWordW m c)
    (winHiddenW m c) (winOutB m c) _ _ (gateW m c) (biasIh m c) (biasHh m c) (outW m c) (outB m c)
    (charRows_eq m c) (wordRows_eq m c) (gateWeights_apply m c) (gateBias_apply m c) (wordWeights_apply m c)
    (hiddenWeights_apply m c) (outBias_apply m c)

end

/-! ## The claims -/

/-- The word-level kernel runs and leaves its arguments unchanged: the whole frame is the generated one. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments unchanged: its run read back, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the same table of rows. -/
theorem algebraic : Cert.algebraic_KernelIdeal_ReferenceIdeal := by
  intro m ρ m' ρ' _ hagree
  refine ⟨fun c => Cert.KernelIdeal.ArrayValue.ofWindows (Cert.KernelIdeal.Gen.V m c Cert.KernelIdeal.main_v19) (Cert.KernelIdeal.Gen.V m c Cert.KernelIdeal.main_v26)
      (Cert.KernelIdeal.Gen.V m c Cert.KernelIdeal.main_v5) (Cert.KernelIdeal.Gen.V m c Cert.KernelIdeal.main_v1) (Cert.KernelIdeal.Gen.V m c Cert.KernelIdeal.main_v7)
      (Cert.KernelIdeal.Gen.V m c Cert.KernelIdeal.main_v9) (Cert.KernelIdeal.Gen.V m c Cert.KernelIdeal.main_v10),
    Cert.KernelIdeal.ArrayValue.run m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7, a8⟩ := hagree c
  show Cert.ReferenceIdeal.Value.res_main_v48 m' c = Cert.KernelIdeal.ArrayValue.ofWindows _ _ _ _ _ _ _
  rw [Cert.ReferenceIdeal.Read.val_main_v48_eq, a0, a1, a2, a3, a4, a5, a6, a7, a8, Cert.ReferenceIdeal.RowValue.result_eq, kernel_result m c]
  unfold Cert.ReferenceIdeal.RowValue.xrow Cert.ReferenceIdeal.RowValue.erow
  rw [← charRows_agree, ← wordRows_agree]

end Cert.Proof.Agree

end
-- ==== Proof.lean ====
/-
  The certificate of the character-level encoder kernel against its jnp reference, over the extended reals.

  Per character the result is a row: the embedding row times the gate weights plus the gate biases, the hidden values of one
  LSTM step from a zero state, and the word's embedding row with the hidden row against the output weight, plus the bias,
  clamped at zero (Proof/Cell.lean). The kernel computes 512 characters per grid point from the host's gathers and
  re-laid weights (Proof/KernelBlock.lean, Proof/KernelArray.lean, Proof/KernelHost.lean); the reference computes whole
  arrays on the host (Proof/RefRow.lean). The two differ by the grouping of the two gate biases (associativity of +) and by
  contracting the joined row at once or in its two parts (a finite sum split in two), so no input needs to be finite for
  the two results to agree; Proof/Agree.lean states that and the five claims. The three frames are the generated ones.
-/
import proofs.«151856_j20787641713006_1_alg».proof.Defs
import proofs.«151856_j20787641713006_1_alg».proof.Proof.Gen.Kernel
import proofs.«151856_j20787641713006_1_alg».proof.Proof.Gen.Kernel.Skeleton
import proofs.«151856_j20787641713006_1_alg».proof.Proof.Gen.Kernel.Launch
import proofs.«151856_j20787641713006_1_alg».proof.Proof.Gen.Kernel.Points
import proofs.«151856_j20787641713006_1_alg».proof.Proof.Gen.Kernel.Frame
import proofs.«151856_j20787641713006_1_alg».proof.Proof.Gen.KernelIdeal
import proofs.«151856_j20787641713006_1_alg».proof.Proof.Gen.KernelIdeal.Skeleton
import proofs.«151856_j20787641713006_1_alg».proof.Proof.Gen.KernelIdeal.Launch
import proofs.«151856_j20787641713006_1_alg».proof.Proof.Gen.KernelIdeal.Points
import proofs.«151856_j20787641713006_1_alg».proof.Proof.Gen.KernelIdeal.Frame
import proofs.«151856_j20787641713006_1_alg».proof.Proof.Gen.ReferenceIdeal
import proofs.«151856_j20787641713006_1_alg».proof.Proof.Gen.Pre_finite_inputs
import proofs.«151856_j20787641713006_1_alg».proof.Proof.Gen.KernelIdeal.Value
import proofs.«151856_j20787641713006_1_alg».proof.Proof.Gen.ReferenceIdeal.Run
import proofs.«151856_j20787641713006_1_alg».proof.Proof.Gen.ReferenceIdeal.Read
import proofs.«151856_j20787641713006_1_alg».proof.Proof.Agree
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Agree.frame_kernel, Agree.frame_kernelIdeal, Agree.frame_referenceIdeal, Agree.preserves, Agree.algebraic⟩

end Cert.Proof

end
